-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x4096x128 : Shape := ⟨4, ![4, 32, 4096, 128]⟩
abbrev S4x32x16x128 : Shape := ⟨4, ![4, 32, 16, 128]⟩
abbrev S_ : Shape := ⟨0, ![]⟩

class Facts : Prop where
  bcast_S_S4x32x4096x128 : S_.BroadcastsInDim S4x32x4096x128 (![] : Fin 0 → Fin S4x32x4096x128.rank)
  reducesTo_S4x32x4096x128_S_d0_1_2_3 : S4x32x4096x128.ReducesTo [0, 1, 2, 3] S_
  h_S_ : 0 < S_.numel
  bcast_S_S4x32x16x128 : S_.BroadcastsInDim S4x32x16x128 (![] : Fin 0 → Fin S4x32x16x128.rank)
  reducesTo_S4x32x16x128_S_d0_1_2_3 : S4x32x16x128.ReducesTo [0, 1, 2, 3] S_

variable [Facts]

def fn_part1 {F : FTy → Type} [FloatOps F] (main_v13 : IVec S_ 1) (main_v16 : IVec S4x32x16x128 1) : IVec S_ 1 :=
  let main_c_5 : IVec S_ 1 := constantI S_ 1 1#1
  let main_v17 : IVec S_ 1 := (fun x v => Host.reduce IntOp.andi x v reducesTo_S4x32x16x128_S_d0_1_2_3 h_S_) main_v16 main_c_5
  let main_v18 : IVec S_ 1 := andi main_v13 main_v17
  main_v18

def fn {F : FTy → Type} [FloatOps F] (main_arg0 : FVec F S4x32x4096x128 .f32) (main_arg1 : FVec F S4x32x4096x128 .f32) (main_arg2 : FVec F S4x32x16x128 .f32) (main_arg3 : FVec F S4x32x16x128 .f32) : IVec S_ 1 :=
  let main_v0 : FVec F S4x32x4096x128 .f32 := Host.absf main_arg0
  let main_cst : FVec F S_ .f32 := constant S_ .f32 0x7F800000#32
  let main_v1 : FVec F S4x32x4096x128 .f32 := broadcastInDim S4x32x4096x128 ![] bcast_S_S4x32x4096x128 main_cst
  let main_v2 : IVec S4x32x4096x128 1 := cmpf .olt main_v0 main_v1
  let main_c : IVec S_ 1 := constantI S_ 1 1#1
  let main_v3 : IVec S_ 1 := (fun x v => Host.reduce IntOp.andi x v reducesTo_S4x32x4096x128_S_d0_1_2_3 h_S_) main_v2 main_c
  let main_v4 : FVec F S4x32x4096x128 .f32 := Host.absf main_arg1
  let main_cst_0 : FVec F S_ .f32 := constant S_ .f32 0x7F800000#32
  let main_v5 : FVec F S4x32x4096x128 .f32 := broadcastInDim S4x32x4096x128 ![] bcast_S_S4x32x4096x128 main_cst_0
  let main_v6 : IVec S4x32x4096x128 1 := cmpf .olt main_v4 main_v5
  let main_c_1 : IVec S_ 1 := constantI S_ 1 1#1
  let main_v7 : IVec S_ 1 := (fun x v => Host.reduce IntOp.andi x v reducesTo_S4x32x4096x128_S_d0_1_2_3 h_S_) main_v6 main_c_1
  let main_v8 : IVec S_ 1 := andi main_v3 main_v7
  let main_v9 : FVec F S4x32x16x128 .f32 := Host.absf main_arg2
  let main_cst_2 : FVec F S_ .f32 := constant S_ .f32 0x7F800000#32
  let main_v10 : FVec F S4x32x16x128 .f32 := broadcastInDim S4x32x16x128 ![] bcast_S_S4x32x16x128 main_cst_2
  let main_v11 : IVec S4x32x16x128 1 := cmpf .olt main_v9 main_v10
  let main_c_3 : IVec S_ 1 := constantI S_ 1 1#1
  let main_v12 : IVec S_ 1 := (fun x v => Host.reduce IntOp.andi x v reducesTo_S4x32x16x128_S_d0_1_2_3 h_S_) main_v11 main_c_3
  let main_v13 : IVec S_ 1 := andi main_v8 main_v12
  let main_v14 : FVec F S4x32x16x128 .f32 := Host.absf main_arg3
  let main_cst_4 : FVec F S_ .f32 := constant S_ .f32 0x7F800000#32
  let main_v15 : FVec F S4x32x16x128 .f32 := broadcastInDim S4x32x16x128 ![] bcast_S_S4x32x16x128 main_cst_4
  let main_v16 : IVec S4x32x16x128 1 := cmpf .olt main_v14 main_v15
  fn_part1 (F := F) main_v13 main_v16
-- ==== Kernel.lean ====
abbrev S4x32x4096x128 : Shape := ⟨4, ![4, 32, 4096, 128]⟩
abbrev S4x32x16x128 : Shape := ⟨4, ![4, 32, 16, 128]⟩
abbrev S4x32x4100x128 : Shape := ⟨4, ![4, 32, 4100, 128]⟩
abbrev S1x1x4096x128 : Shape := ⟨4, ![1, 1, 4096, 128]⟩
abbrev S1x1x16x128 : Shape := ⟨4, ![1, 1, 16, 128]⟩
abbrev S1x1x4100x128 : Shape := ⟨4, ![1, 1, 4100, 128]⟩
abbrev S1x1x4x128 : Shape := ⟨4, ![1, 1, 4, 128]⟩
abbrev S4x128 : Shape := ⟨2, ![4, 128]⟩
abbrev S1x1x4080x128 : Shape := ⟨4, ![1, 1, 4080, 128]⟩
abbrev S4080x128 : Shape := ⟨2, ![4080, 128]⟩
abbrev S16x128 : Shape := ⟨2, ![16, 128]⟩

abbrev nBuf : Space → Nat
  | .hbm => 6
  | .vmem => 12
  | .smem => 0
  | _ => 0

abbrev bufTy : (tb : Table) → Fin (tcTables nBuf tb) → BufTy
  | .hbm, ⟨0, _⟩ => ⟨S4x32x4096x128, .f32⟩
  | .hbm, ⟨1, _⟩ => ⟨S4x32x4096x128, .f32⟩
  | .hbm, ⟨2, _⟩ => ⟨S4x32x16x128, .f32⟩
  | .hbm, ⟨3, _⟩ => ⟨S4x32x16x128, .f32⟩
  | .hbm, ⟨4, _⟩ => ⟨S4x32x4100x128, .f32⟩
  | .hbm, ⟨5, _⟩ => ⟨S4x32x4100x128, .f32⟩
  | .local _ .vmem, ⟨0, _⟩ => ⟨S1x1x4096x128, .f32⟩
  | .local _ .vmem, ⟨1, _⟩ => ⟨S1x1x4096x128, .f32⟩
  | .local _ .vmem, ⟨2, _⟩ => ⟨S1x1x4096x128, .f32⟩
  | .local _ .vmem, ⟨3, _⟩ => ⟨S1x1x4096x128, .f32⟩
  | .local _ .vmem, ⟨4, _⟩ => ⟨S1x1x16x128, .f32⟩
  | .local _ .vmem, ⟨5, _⟩ => ⟨S1x1x16x128, .f32⟩
  | .local _ .vmem, ⟨6, _⟩ => ⟨S1x1x16x128, .f32⟩
  | .local _ .vmem, ⟨7, _⟩ => ⟨S1x1x16x128, .f32⟩
  | .local _ .vmem, ⟨8, _⟩ => ⟨S1x1x4100x128, .f32⟩
  | .local _ .vmem, ⟨9, _⟩ => ⟨S1x1x4100x128, .f32⟩
  | .local _ .vmem, ⟨10, _⟩ => ⟨S1x1x4100x128, .f32⟩
  | .local _ .vmem, ⟨11, _⟩ => ⟨S1x1x4100x128, .f32⟩
  | _, _ => ⟨S4x32x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4100x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4100x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x1x4096x128_S1x1x4x128_0_0_0_0 : ∀ a, (![0, 0, 0, 0] : Fin 4 → Nat) a + S1x1x4x128.size a ≤ S1x1x4096x128.size a
  h_S1x1x4x128 : 0 < S1x1x4x128.numel
  shapeCasts_S1x1x4x128_S4x128 : S1x1x4x128.ShapeCasts S4x128
  inb_S1x1x4100x128_S1x1x4x128_0_0_0_0 : ∀ a, (![0, 0, 0, 0] : Fin 4 → Nat) a + S1x1x4x128.size a ≤ S1x1x4100x128.size a
  shapeCasts_S4x128_S1x1x4x128 : S4x128.ShapeCasts S1x1x4x128
  inb_S1x1x4096x128_S1x1x4080x128_0_0_16_0 : ∀ a, (![0, 0, 16, 0] : Fin 4 → Nat) a + S1x1x4080x128.size a ≤ S1x1x4096x128.size a
  h_S1x1x4080x128 : 0 < S1x1x4080x128.numel
  shapeCasts_S1x1x4080x128_S4080x128 : S1x1x4080x128.ShapeCasts S4080x128
  inb_S1x1x4100x128_S1x1x4080x128_0_0_4_0 : ∀ a, (![0, 0, 4, 0] : Fin 4 → Nat) a + S1x1x4080x128.size a ≤ S1x1x4100x128.size a
  shapeCasts_S4080x128_S1x1x4080x128 : S4080x128.ShapeCasts S1x1x4080x128
  inb_S1x1x16x128_S1x1x16x128_0_0_0_0 : ∀ a, (![0, 0, 0, 0] : Fin 4 → Nat) a + S1x1x16x128.size a ≤ S1x1x16x128.size a
  h_S1x1x16x128 : 0 < S1x1x16x128.numel
  shapeCasts_S1x1x16x128_S16x128 : S1x1x16x128.ShapeCasts S16x128
  inb_S1x1x4100x128_S1x1x16x128_0_0_4084_0 : ∀ a, (![0, 0, 4084, 0] : Fin 4 → Nat) a + S1x1x16x128.size a ≤ S1x1x4100x128.size a
  shapeCasts_S16x128_S1x1x16x128 : S16x128.ShapeCasts S1x1x16x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4096x128.size a ≤ S4x32x4096x128.size a
  hwx0_0 : ∀ i : grid0.Coords, EltTy.bits .f32 = 32 ∨ (Rect.block (s := S4x32x4096x128) S1x1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096x128.size a ≤ S4x32x4096x128.size a
  hwx0_1 : ∀ i : grid0.Coords, EltTy.bits .f32 = 32 ∨ (Rect.block (s := S4x32x4096x128) S1x1x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x16x128.size a ≤ S4x32x16x128.size a
  hwx0_2 : ∀ i : grid0.Coords, EltTy.bits .f32 = 32 ∨ (Rect.block (s := S4x32x16x128) S1x1x16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x16x128.size a ≤ S4x32x16x128.size a
  hwx0_3 : ∀ i : grid0.Coords, EltTy.bits .f32 = 32 ∨ (Rect.block (s := S4x32x16x128) S1x1x16x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x4100x128.size a ≤ S4x32x4100x128.size a
  hwx0_4 : ∀ i : grid0.Coords, EltTy.bits .f32 = 32 ∨ (Rect.block (s := S4x32x4100x128) S1x1x4100x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x4100x128.size a ≤ S4x32x4100x128.size a
  hwx0_5 : ∀ i : grid0.Coords, EltTy.bits .f32 = 32 ∨ (Rect.block (s := S4x32x4100x128) S1x1x4100x128.size (cc0_transform_5 i) (hinb0_5 i)).WholeWords (EltTy.packing .f32)

variable [Facts₀]

abbrev win0_0 : Pipeline.Window sig grid0 :=
  Pipeline.Window.ofSpec (Memref.whole main_arg0) S1x1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x16x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x16x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x4100x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x4100x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x32x4096x128 : Shape := ⟨4, ![4, 32, 4096, 128]⟩
abbrev S4x32x16x128 : Shape := ⟨4, ![4, 32, 16, 128]⟩
abbrev S4x32x4112x128 : Shape := ⟨4, ![4, 32, 4112, 128]⟩
abbrev S4x32x4x128 : Shape := ⟨4, ![4, 32, 4, 128]⟩
abbrev S4x32x4100x128 : Shape := ⟨4, ![4, 32, 4100, 128]⟩

abbrev nBuf : Space → Nat
  | .hbm => 12
  | .vmem => 0
  | .smem => 0
  | _ => 0

abbrev bufTy : (tb : Table) → Fin (tcTables nBuf tb) → BufTy
  | .hbm, ⟨0, _⟩ => ⟨S4x32x4096x128, .f32⟩
  | .hbm, ⟨1, _⟩ => ⟨S4x32x4096x128, .f32⟩
  | .hbm, ⟨2, _⟩ => ⟨S4x32x16x128, .f32⟩
  | .hbm, ⟨3, _⟩ => ⟨S4x32x16x128, .f32⟩
  | .hbm, ⟨4, _⟩ => ⟨S4x32x4112x128, .f32⟩
  | .hbm, ⟨5, _⟩ => ⟨S4x32x4x128, .f32⟩
  | .hbm, ⟨6, _⟩ => ⟨S4x32x4096x128, .f32⟩
  | .hbm, ⟨7, _⟩ => ⟨S4x32x4100x128, .f32⟩
  | .hbm, ⟨8, _⟩ => ⟨S4x32x4112x128, .f32⟩
  | .hbm, ⟨9, _⟩ => ⟨S4x32x4x128, .f32⟩
  | .hbm, ⟨10, _⟩ => ⟨S4x32x4096x128, .f32⟩
  | .hbm, ⟨11, _⟩ => ⟨S4x32x4100x128, .f32⟩
  | _, _ => ⟨S4x32x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  concatenates_S4x32x4096x128_S4x32x16x128_S4x32x4112x128_d2 : Shape.Concatenates [S4x32x4096x128, S4x32x16x128] S4x32x4112x128 2
  slices_S4x32x4112x128_S4x32x4x128_0_0_0_0 : S4x32x4112x128.Slices ![0, 0, 0, 0] S4x32x4x128
  slices_S4x32x4112x128_S4x32x4096x128_0_0_16_0 : S4x32x4112x128.Slices ![0, 0, 16, 0] S4x32x4096x128
  concatenates_S4x32x4x128_S4x32x4096x128_S4x32x4100x128_d2 : Shape.Concatenates [S4x32x4x128, S4x32x4096x128] S4x32x4100x128 2

variable [Facts₀]

class Facts : Prop extends Facts₀ where

variable [Facts]
-- ==== Proof.CacheRows.lean ====
/-
  The row map of a sink-plus-window cache update, and the host's spelling of it.

  Per (batch, head) the old cache has 4096 rows of 128 lanes and 16 new rows arrive. The updated cache keeps the first
  four rows (the sink) and the last 4096 rows of "old followed by new" (the window), 4100 rows in all:

      row r of the result  =  old row r            for r < 4            (the sink),
                              old row r + 12       for 4 ≤ r < 4084     (the kept tail: old rows 16 … 4095),
                              new row r - 4084     for 4084 ≤ r < 4100  (the new rows).

  `updated` is that function, over any element type and any two leading extents (the whole arrays have leading
  extents 4 × 32, one (batch, head) block has 1 × 1). Nothing is computed: every result element is one input element.

  The host spells the same map as: join old and new along the row axis (4112 rows), take rows 0 … 3 and rows
  16 … 4111 of the join, and join those two. Row r ≥ 4 of the result is row r - 4 of the second slice, which is row
  r + 12 of the first join; that row is old row r + 12 while r + 12 < 4096 and new row r + 12 - 4096 = r - 4084 after.
  `join_slices_eq_updated` is that computation, index by index.
-/
import Idealize.ShloMosaic.Lib.ValueIdx
import Idealize.ShloMosaic.Lib.Pipeline.Value

noncomputable section

namespace CacheRows

open Idealize.ShloMosaic Idealize.ShloMosaic.ValueIdx

variable {α : Type} {b h : Nat}

/-- The old cache: 4096 rows of 128 lanes per leading pair. -/
abbrev Old (b h : Nat) : Shape := ⟨4, ![b, h, 4096, 128]⟩
/-- The new rows: 16 per leading pair. -/
abbrev New (b h : Nat) : Shape := ⟨4, ![b, h, 16, 128]⟩
/-- Old followed by new: 4112 rows. -/
abbrev Joined (b h : Nat) : Shape := ⟨4, ![b, h, 4112, 128]⟩
/-- The sink: the first four rows. -/
abbrev Sink (b h : Nat) : Shape := ⟨4, ![b, h, 4, 128]⟩
/-- The updated cache: 4 + 4096 rows. -/
abbrev Upd (b h : Nat) : Shape := ⟨4, ![b, h, 4100, 128]⟩

/-- The updated cache as a function of the old cache and the new rows. -/
def updated (old : (Old b h).Idx → α) (new : (New b h).Idx → α) : (Upd b h).Idx → α := fun i =>
  if h1 : (i 2).val < 4 then
    old (ix4 (i 0) (i 1) ⟨(i 2).val, by omega⟩ (i 3))
  else if h2 : (i 2).val < 4084 then
    old (ix4 (i 0) (i 1) ⟨(i 2).val + 12, by omega⟩ (i 3))
  else
    new (ix4 (i 0) (i 1) ⟨(i 2).val - 4084, by have h3 : (i 2).val < 4100 := (i 2).isLt; omega⟩ (i 3))

/-- A sink row is the old row of the same number. -/
theorem updated_sink (old : (Old b h).Idx → α) (new : (New b h).Idx → α) (i : (Upd b h).Idx) (k : (Old b h).Idx)
    (hr : (i 2).val < 4) (k0 : (k 0).val = (i 0).val) (k1 : (k 1).val = (i 1).val) (k2 : (k 2).val = (i 2).val)
    (k3 : (k 3).val = (i 3).val) : updated old new i = old k := by
  unfold updated
  rw [dif_pos hr]
  refine congrArg old (funext fun a => Fin.ext ?_)
  match a with
  | ⟨0, _⟩ => exact k0.symm
  | ⟨1, _⟩ => exact k1.symm
  | ⟨2, _⟩ => exact k2.symm
  | ⟨3, _⟩ => exact k3.symm

/-- A row of the kept tail is the old row twelve further on. -/
theorem updated_tail (old : (Old b h).Idx → α) (new : (New b h).Idx → α) (i : (Upd b h).Idx) (k : (Old b h).Idx)
    (hlo : 4 ≤ (i 2).val) (hhi : (i 2).val < 4084) (k0 : (k 0).val = (i 0).val) (k1 : (k 1).val = (i 1).val)
    (k2 : (k 2).val = (i 2).val + 12) (k3 : (k 3).val = (i 3).val) : updated old new i = old k := by
  unfold updated
  rw [dif_neg (by omega), dif_pos hhi]
  refine congrArg old (funext fun a => Fin.ext ?_)
  match a with
  | ⟨0, _⟩ => exact k0.symm
  | ⟨1, _⟩ => exact k1.symm
  | ⟨2, _⟩ => exact k2.symm
  | ⟨3, _⟩ => exact k3.symm

/-- One of the last sixteen rows is a new row. -/
theorem updated_new (old : (Old b h).Idx → α) (new : (New b h).Idx → α) (i : (Upd b h).Idx) (k : (New b h).Idx)
    (hlo : 4084 ≤ (i 2).val) (k0 : (k 0).val = (i 0).val) (k1 : (k 1).val = (i 1).val)
    (k2 : (k 2).val + 4084 = (i 2).val) (k3 : (k 3).val = (i 3).val) : updated old new i = new k := by
  unfold updated
  rw [dif_neg (by omega), dif_neg (by omega)]
  refine congrArg new (funext fun a => Fin.ext ?_)
  match a with
  | ⟨0, _⟩ => exact k0.symm
  | ⟨1, _⟩ => exact k1.symm
  | ⟨2, _⟩ => show (i 2).val - 4084 = (k 2).val; omega
  | ⟨3, _⟩ => exact k3.symm

/-! ## The host's spelling -/

/-- Join old and new (4112 rows), take rows 0 … 3 and rows 16 … 4111, join the two: the row map, index by index.
    Result row r < 4 is row r of the first slice, row r of the join, old row r. Result row r ≥ 4 is row r - 4 of the
    second slice, row r + 12 of the join: old row r + 12 below 4096, new row r + 12 - 4096 from there on. -/
theorem join_slices_eq_updated (old : (Old b h).Idx → α) (new : (New b h).Idx → α)
    (hj : Shape.Concatenates [Old b h, New b h] (Joined b h) 2)
    (hs : (Joined b h).Slices ![0, 0, 0, 0] (Sink b h))
    (hw : (Joined b h).Slices ![0, 0, 16, 0] (Old b h))
    (hu : Shape.Concatenates [Sink b h, Old b h] (Upd b h) 2) :
    concatenate (Upd b h) 2
        [⟨Sink b h, extractStridedSlice (Sink b h) ![0, 0, 0, 0]
            (concatenate (Joined b h) 2 [⟨Old b h, old⟩, ⟨New b h, new⟩] hj) hs⟩,
         ⟨Old b h, extractStridedSlice (Old b h) ![0, 0, 16, 0]
            (concatenate (Joined b h) 2 [⟨Old b h, old⟩, ⟨New b h, new⟩] hj) hw⟩] hu
      = updated old new := by
  funext i
  have hi : (i 2).val < 4100 := (i 2).isLt
  by_cases h1 : (i 2).val < 4
  · -- the sink: first slice, first operand of the join
    refine (concatenate_pair_apply_left 2 _ _ hu i rfl (ix4 (i 0) (i 1) ⟨(i 2).val, h1⟩ (i 3)) (fun a => ?_)).trans ?_
    · match a with
      | ⟨0, _⟩ => rfl
      | ⟨1, _⟩ => rfl
      | ⟨2, _⟩ => rfl
      | ⟨3, _⟩ => rfl
    refine (extractStridedSlice_apply ![0, 0, 0, 0] _ hs _ (ix4 (i 0) (i 1) ⟨(i 2).val, by omega⟩ (i 3)) (fun a => ?_)).trans ?_
    · match a with
      | ⟨0, _⟩ => show (i 0).val = 0 + (i 0).val; omega
      | ⟨1, _⟩ => show (i 1).val = 0 + (i 1).val; omega
      | ⟨2, _⟩ => show (i 2).val = 0 + (i 2).val; omega
      | ⟨3, _⟩ => show (i 3).val = 0 + (i 3).val; omega
    refine (concatenate_pair_apply_left 2 old new hj _ rfl (ix4 (i 0) (i 1) ⟨(i 2).val, by omega⟩ (i 3)) (fun a => ?_)).trans ?_
    · match a with
      | ⟨0, _⟩ => rfl
      | ⟨1, _⟩ => rfl
      | ⟨2, _⟩ => rfl
      | ⟨3, _⟩ => rfl
    exact (updated_sink old new i _ h1 rfl rfl rfl rfl).symm
  · -- the window: second slice, row r - 4 of it, row r + 12 of the join
    refine (concatenate_pair_apply_right 2 _ _ hu i rfl rfl (ix4 (i 0) (i 1) ⟨(i 2).val - 4, by omega⟩ (i 3))
      (fun a ha => ?_) ?_).trans ?_
    · match a with
      | ⟨0, _⟩ => rfl
      | ⟨1, _⟩ => rfl
      | ⟨2, _⟩ => exact absurd rfl ha
      | ⟨3, _⟩ => rfl
    · show (i 2).val - 4 + 4 = (i 2).val; omega
    refine (extractStridedSlice_apply ![0, 0, 16, 0] _ hw _ (ix4 (i 0) (i 1) ⟨(i 2).val + 12, by omega⟩ (i 3)) (fun a => ?_)).trans ?_
    · match a with
      | ⟨0, _⟩ => show (i 0).val = 0 + (i 0).val; omega
      | ⟨1, _⟩ => show (i 1).val = 0 + (i 1).val; omega
      | ⟨2, _⟩ => show (i 2).val + 12 = 16 + ((i 2).val - 4); omega
      | ⟨3, _⟩ => show (i 3).val = 0 + (i 3).val; omega
    by_cases h2 : (i 2).val < 4084
    · -- the kept tail: still inside the old cache
      refine (concatenate_pair_apply_left 2 old new hj _ rfl (ix4 (i 0) (i 1) ⟨(i 2).val + 12, by omega⟩ (i 3)) (fun a => ?_)).trans ?_
      · match a with
        | ⟨0, _⟩ => rfl
        | ⟨1, _⟩ => rfl
        | ⟨2, _⟩ => rfl
        | ⟨3, _⟩ => rfl
      exact (updated_tail old new i _ (by omega) h2 rfl rfl rfl rfl).symm
    · -- the new rows: past the old cache's 4096 rows
      refine (concatenate_pair_apply_right 2 old new hj _ rfl rfl (ix4 (i 0) (i 1) ⟨(i 2).val - 4084, by omega⟩ (i 3))
        (fun a ha => ?_) ?_).trans ?_
      · match a with
        | ⟨0, _⟩ => rfl
        | ⟨1, _⟩ => rfl
        | ⟨2, _⟩ => exact absurd rfl ha
        | ⟨3, _⟩ => rfl
      · show (i 2).val - 4084 + 4096 = (i 2).val + 12; omega
      exact (updated_new old new i _ (by omega) rfl rfl (by show (i 2).val - 4084 + 4084 = (i 2).val; omega) rfl).symm

/-! ## One (batch, head) block at a time -/

/-- The row map acts on rows and lanes only: if `a` and `n` are the (p, q) blocks of the whole arrays `A` and `N`, the
    update of the blocks is the (p, q) block of the update of the arrays. -/
theorem updated_block {B H : Nat} (A : (Old B H).Idx → α) (N : (New B H).Idx → α)
    (a : (Old 1 1).Idx → α) (n : (New 1 1).Idx → α) (p : Fin B) (q : Fin H)
    (ha : ∀ k : (Old 1 1).Idx, a k = A (ix4 p q (k 2) (k 3)))
    (hn : ∀ k : (New 1 1).Idx, n k = N (ix4 p q (k 2) (k 3)))
    (j : (Upd 1 1).Idx) : updated a n j = updated A N (ix4 p q (j 2) (j 3)) := by
  have hj : (j 2).val < 4100 := (j 2).isLt
  by_cases h1 : (j 2).val < 4
  · rw [updated_sink a n j (ix4 (j 0) (j 1) ⟨(j 2).val, by omega⟩ (j 3)) h1 rfl rfl rfl rfl, ha]
    exact (updated_sink A N _ _ h1 rfl rfl rfl rfl).symm
  · by_cases h2 : (j 2).val < 4084
    · rw [updated_tail a n j (ix4 (j 0) (j 1) ⟨(j 2).val + 12, by omega⟩ (j 3)) (by omega) h2 rfl rfl rfl rfl, ha]
      exact (updated_tail A N _ _ (by show 4 ≤ (j 2).val; omega) h2 rfl rfl rfl rfl).symm
    · rw [updated_new a n j (ix4 (j 0) (j 1) ⟨(j 2).val - 4084, by omega⟩ (j 3)) (by omega) rfl rfl
        (by show (j 2).val - 4084 + 4084 = (j 2).val; omega) rfl, hn]
      exact (updated_new A N _ _ (by show 4084 ≤ (j 2).val; omega) rfl rfl
        (by show (j 2).val - 4084 + 4084 = (j 2).val; omega) rfl).symm

end CacheRows

end
-- ==== Proof.BlockRows.lean ====
/-
  What one grid point leaves in each output's staging block.

  At a (batch, head) point the body makes three stores into the 4100-row output block: rows 0 … 3 from a load of rows
  0 … 3 of the old-cache block, rows 4 … 4083 from a load of its rows 16 … 4095, rows 4084 … 4099 from a load of all
  16 rows of the new block. Each stored value is the loaded one cast to rank 2 and back, which changes nothing. So
  every stored piece agrees, index by index, with the row map `CacheRows.updated` of the two input blocks; the three
  rectangles cover the block; hence the block holds exactly the row map of the point's input blocks, whatever it held
  before. The same for the second output, from the other pair of inputs.
-/
import proofs.«129478_j498216206780_1_alg».proof.Proof.Gen.KernelIdeal.Frame
import proofs.«129478_j498216206780_1_alg».proof.Proof.CacheRows

noncomputable section

namespace Cert.KernelIdeal.BlockRows

open Cert.KernelIdeal Cert.KernelIdeal.Gen Idealize.ShloMosaic Idealize.ShloMosaic.TcCoe Idealize.ShloMosaic.Tactic
open Idealize.SL.Sem Idealize.ShloMosaic.ValueIdx CacheRows

variable {F : FTy → Type} [FloatOps F]

/-! ## The stored values are the loaded ones -/

/-- A cast of four sink rows to rank 2 and back is the identity. -/
theorem pay_sink_first (v : Vec F S1x1x4x128 .f32) : k0_pay3 v = v := shapeCast_shapeCast v _ _
/-- A cast of the 4080 tail rows to rank 2 and back is the identity. -/
theorem pay_tail_first (v : Vec F S1x1x4080x128 .f32) : k0_pay4 v = v := shapeCast_shapeCast v _ _
/-- A cast of the 16 new rows to rank 2 and back is the identity. -/
theorem pay_new_first (v : Vec F S1x1x16x128 .f32) : k0_pay5 v = v := shapeCast_shapeCast v _ _
/-- The same three for the second output. -/
theorem pay_sink_second (v : Vec F S1x1x4x128 .f32) : k0_pay6 v = v := shapeCast_shapeCast v _ _
theorem pay_tail_second (v : Vec F S1x1x4080x128 .f32) : k0_pay1 v = v := shapeCast_shapeCast v _ _
theorem pay_new_second (v : Vec F S1x1x16x128 .f32) : k0_pay2 v = v := shapeCast_shapeCast v _ _

/-- A load from a whole staging buffer whose contents read `X` reads `X` at the rectangle's indices. -/
theorem load_apply {S : Shape} (M : Memref sig .tc .vmem S .f32) (hM : M.IsWhole) (X : Vec F S .f32) (r : LoadRect S)
    (x : r.shape.Idx) : View.readAt (Elt F) M.view r (hM.unread X) x = X (r.idx x) := by
  rw [View.readAt_apply, hM.read_unread]

/-! ## The two output blocks -/

/-- The first output's block after the body is the row map of the first old-cache block and the first new block. -/
theorem first_block (c : Dev nD) (i : grid0.Coords) (arg2 : Memref sig .tc .vmem S1x1x4096x128 .f32) (harg2 : arg2.IsWhole) (arg3 : Memref sig .tc .vmem S1x1x4096x128 .f32) (harg3 : arg3.IsWhole) (arg4 : Memref sig .tc .vmem S1x1x16x128 .f32) (harg4 : arg4.IsWhole) (arg5 : Memref sig .tc .vmem S1x1x16x128 .f32) (harg5 : arg5.IsWhole) (arg6 : Memref sig .tc .vmem S1x1x4100x128 .f32) (harg6 : arg6.IsWhole) (arg7 : Memref sig .tc .vmem S1x1x4100x128 .f32) (harg7 : arg7.IsWhole)
    (x0 : Vec F S1x1x4096x128 .f32) (x1 : Vec F S1x1x4096x128 .f32) (x2 : Vec F S1x1x16x128 .f32) (x3 : Vec F S1x1x16x128 .f32) :
    out0_A_4 c i arg2 harg2 arg3 harg3 arg4 harg4 arg5 harg5 arg6 harg6 arg7 harg7 x0 x1 x2 x3 = updated (b := 1) (h := 1) x0 x2 := by
  funext y
  unfold out0_A_4
  refine View.read_writes_apply_of_pieces _ _ (updated (b := 1) (h := 1) x0 x2) _ ?_ y
    (cover0_A_4 c i arg2 harg2 arg3 harg3 arg4 harg4 arg5 harg5 arg6 harg6 arg7 harg7 x0 x1 x2 x3 y)
  unfold kernelRun0_A
  dsimp only
  intro p hp
  rcases List.mem_cons.mp hp with rfl | hp
  · -- rows 4084 … 4099: the new rows
    intro x
    have hx : (x 2).val < 16 := (x 2).isLt
    dsimp only
    rw [pay_new_first, load_apply]
    exact (updated_new x0 x2 _ _ (by show 4084 ≤ 4084 + 1 * (x 2).val; omega) rfl rfl
      (by show 0 + 1 * (x 2).val + 4084 = 4084 + 1 * (x 2).val; omega) rfl).symm
  rcases List.mem_cons.mp hp with rfl | hp
  · -- rows 4 … 4083: old rows 16 … 4095
    intro x
    have hx : (x 2).val < 4080 := (x 2).isLt
    dsimp only
    rw [pay_tail_first, load_apply]
    exact (updated_tail x0 x2 _ _ (by show 4 ≤ 4 + 1 * (x 2).val; omega) (by show 4 + 1 * (x 2).val < 4084; omega) rfl rfl
      (by show 16 + 1 * (x 2).val = 4 + 1 * (x 2).val + 12; omega) rfl).symm
  rcases List.mem_cons.mp hp with rfl | hp
  · -- rows 0 … 3: the sink
    intro x
    have hx : (x 2).val < 4 := (x 2).isLt
    dsimp only
    rw [pay_sink_first, load_apply]
    exact (updated_sink x0 x2 _ _ (by show 0 + 1 * (x 2).val < 4; omega) rfl rfl rfl rfl).symm
  · exact absurd hp List.not_mem_nil

/-- The second output's block after the body is the row map of the second old-cache block and the second new block. -/
theorem second_block (c : Dev nD) (i : grid0.Coords) (arg2 : Memref sig .tc .vmem S1x1x4096x128 .f32) (harg2 : arg2.IsWhole) (arg3 : Memref sig .tc .vmem S1x1x4096x128 .f32) (harg3 : arg3.IsWhole) (arg4 : Memref sig .tc .vmem S1x1x16x128 .f32) (harg4 : arg4.IsWhole) (arg5 : Memref sig .tc .vmem S1x1x16x128 .f32) (harg5 : arg5.IsWhole) (arg6 : Memref sig .tc .vmem S1x1x4100x128 .f32) (harg6 : arg6.IsWhole) (arg7 : Memref sig .tc .vmem S1x1x4100x128 .f32) (harg7 : arg7.IsWhole)
    (x0 : Vec F S1x1x4096x128 .f32) (x1 : Vec F S1x1x4096x128 .f32) (x2 : Vec F S1x1x16x128 .f32) (x3 : Vec F S1x1x16x128 .f32) :
    out0_A_5 c i arg2 harg2 arg3 harg3 arg4 harg4 arg5 harg5 arg6 harg6 arg7 harg7 x0 x1 x2 x3 = updated (b := 1) (h := 1) x1 x3 := by
  funext y
  unfold out0_A_5
  refine View.read_writes_apply_of_pieces _ _ (updated (b := 1) (h := 1) x1 x3) _ ?_ y
    (cover0_A_5 c i arg2 harg2 arg3 harg3 arg4 harg4 arg5 harg5 arg6 harg6 arg7 harg7 x0 x1 x2 x3 y)
  unfold kernelRun0_A
  dsimp only
  sl_unfold_run_names
  intro p hp
  rcases List.mem_cons.mp hp with rfl | hp
  · intro x
    have hx : (x 2).val < 16 := (x 2).isLt
    dsimp only
    rw [pay_new_second, load_apply]
    exact (updated_new x1 x3 _ _ (by show 4084 ≤ 4084 + 1 * (x 2).val; omega) rfl rfl
      (by show 0 + 1 * (x 2).val + 4084 = 4084 + 1 * (x 2).val; omega) rfl).symm
  rcases List.mem_cons.mp hp with rfl | hp
  · intro x
    have hx : (x 2).val < 4080 := (x 2).isLt
    dsimp only
    rw [pay_tail_second, load_apply]
    exact (updated_tail x1 x3 _ _ (by show 4 ≤ 4 + 1 * (x 2).val; omega) (by show 4 + 1 * (x 2).val < 4084; omega) rfl rfl
      (by show 16 + 1 * (x 2).val = 4 + 1 * (x 2).val + 12; omega) rfl).symm
  rcases List.mem_cons.mp hp with rfl | hp
  · intro x
    have hx : (x 2).val < 4 := (x 2).isLt
    dsimp only
    rw [pay_sink_second, load_apply]
    exact (updated_sink x1 x3 _ _ (by show 0 + 1 * (x 2).val < 4; omega) rfl rfl rfl rfl).symm
  · exact absurd hp List.not_mem_nil

end Cert.KernelIdeal.BlockRows

end
-- ==== Proof.ArrayRows.lean ====
/-
  From blocks to arrays: the kernel's two results as functions of its four arguments.

  The grid has one point per (batch, head), 4 × 32 = 128 points. At each point the pipeline fetches the (batch, head)
  blocks of the four arguments, runs the body, and writes the two 4100-row output blocks back to the (batch, head)
  blocks of the two results. The body leaves in each output block the row map of its input blocks (`BlockRows`); the
  row map touches rows and lanes only, so that is the (batch, head) block of the row map of the whole arrays; the 128
  output blocks are disjoint and cover each result array. Hence each result array ends as `CacheRows.updated` of the
  corresponding old cache and new rows.
-/
import proofs.«129478_j498216206780_1_alg».proof.Proof.Gen.KernelIdeal.Value
import proofs.«129478_j498216206780_1_alg».proof.Proof.BlockRows

noncomputable section

namespace Cert.KernelIdeal.ArrayRows

open Cert.KernelIdeal Cert.KernelIdeal.Gen Idealize.ShloMosaic Idealize.ShloMosaic.TcCoe Idealize.SL.Sem
open Idealize.ShloMosaic.Pipeline (Dat)
open Idealize.ShloMosaic.ValueIdx CacheRows

variable {F : FTy → Type} [FloatOps F]
variable (m : (ℓ : Loc nD τ sig) → Buf (Elt F) ℓ) (ρ : Dev nD → PrngReg)

/-! ## The first output -/

/-- The printed index maps, decided over the 128 grid points: the first output's block index is (batch, head, 0, 0)
    with batch < 4 and head < 32, and the old-cache and new-row windows it is computed from sit at the same
    (batch, head). -/
theorem index_facts_first : ∀ t : Fin cfg0.N,
    win0_0.index t (0 : Fin 4) = win0_4.index t (0 : Fin 4) ∧ win0_0.index t (1 : Fin 4) = win0_4.index t (1 : Fin 4)
    ∧ win0_0.index t (2 : Fin 4) = 0 ∧ win0_0.index t (3 : Fin 4) = 0
    ∧ win0_2.index t (0 : Fin 4) = win0_4.index t (0 : Fin 4) ∧ win0_2.index t (1 : Fin 4) = win0_4.index t (1 : Fin 4)
    ∧ win0_2.index t (2 : Fin 4) = 0 ∧ win0_2.index t (3 : Fin 4) = 0
    ∧ win0_4.index t (0 : Fin 4) < 4 ∧ win0_4.index t (1 : Fin 4) < 32
    ∧ win0_4.index t (2 : Fin 4) = 0 ∧ win0_4.index t (3 : Fin 4) = 0 :=
  (by decide +kernel : ∀ t : Fin grid0.N, _)

/-- Every (batch, head) is some grid point's block. -/
theorem index_onto_first : ∀ (q0 : Fin 4) (q1 : Fin 32), ∃ t : Fin cfg0.N, win0_4.index t = ![q0.val, q1.val, 0, 0] :=
  (by decide +kernel : ∀ (q0 : Fin 4) (q1 : Fin 32), ∃ t : Fin grid0.N, win0_4.index t = ![q0.val, q1.val, 0, 0])

/-- What point `t` writes back is block `t` of the row map of the whole argument arrays: the body leaves the row map of
    the point's input blocks (`BlockRows`), those blocks are the (batch, head) blocks of the arrays, and the row map acts
    on rows and lanes only (`CacheRows.updated_block`). -/
theorem flushed_first (c : Dev nD) (t : Fin cfg0.N) :
    (dats m 0 c).flushed 4 t = ((cfg0.win 4).blk t).view.read (Elt F)
      (updated (b := 4) (h := 32) (V m c main_arg0) (V m c main_arg2)) := by
  rw [Value.flushed4_A, BlockRows.first_block]
  obtain ⟨eo0, eo1, eo2, eo3, en0, en1, en2, en3, b0, b1, z2, z3⟩ := index_facts_first t
  funext j
  have hj0 : (j 0).val < 1 := (j 0).isLt
  have hj1 : (j 1).val < 1 := (j 1).isLt
  show updated (b := 1) (h := 1) (iblk m c 0 t) (iblk m c 2 t) ((cfg0.win 4).xinj (grid0.coords t) j)
    = updated (b := 4) (h := 32) (V m c main_arg0) (V m c main_arg2) (((cfg0.win 4).blk t).view.emb j)
  refine (updated_block (B := 4) (H := 32) (V m c main_arg0) (V m c main_arg2) (iblk m c 0 t) (iblk m c 2 t)
    ⟨win0_4.index t (0 : Fin 4), b0⟩ ⟨win0_4.index t (1 : Fin 4), b1⟩ (fun k => ?_) (fun k => ?_) _).trans ?_
  · -- the old-cache block is the (batch, head) block of the old cache
    have hk0 : (k 0).val < 1 := (k 0).isLt
    have hk1 : (k 1).val < 1 := (k 1).isLt
    show V m c main_arg0 (((cfg0.win 0).blk t).view.emb k) = V m c main_arg0 _
    refine congrArg _ (funext fun a => Fin.ext ?_)
    match a with
    | ⟨0, _⟩ => show win0_0.index t (0 : Fin 4) * 1 + 1 * (k 0).val = win0_4.index t (0 : Fin 4); omega
    | ⟨1, _⟩ => show win0_0.index t (1 : Fin 4) * 1 + 1 * (k 1).val = win0_4.index t (1 : Fin 4); omega
    | ⟨2, _⟩ => show win0_0.index t (2 : Fin 4) * 4096 + 1 * (k 2).val = (k 2).val; omega
    | ⟨3, _⟩ => show win0_0.index t (3 : Fin 4) * 128 + 1 * (k 3).val = (k 3).val; omega
  · -- the new-row block is the (batch, head) block of the new rows
    have hk0 : (k 0).val < 1 := (k 0).isLt
    have hk1 : (k 1).val < 1 := (k 1).isLt
    show V m c main_arg2 (((cfg0.win 2).blk t).view.emb k) = V m c main_arg2 _
    refine congrArg _ (funext fun a => Fin.ext ?_)
    match a with
    | ⟨0, _⟩ => show win0_2.index t (0 : Fin 4) * 1 + 1 * (k 0).val = win0_4.index t (0 : Fin 4); omega
    | ⟨1, _⟩ => show win0_2.index t (1 : Fin 4) * 1 + 1 * (k 1).val = win0_4.index t (1 : Fin 4); omega
    | ⟨2, _⟩ => show win0_2.index t (2 : Fin 4) * 16 + 1 * (k 2).val = (k 2).val; omega
    | ⟨3, _⟩ => show win0_2.index t (3 : Fin 4) * 128 + 1 * (k 3).val = (k 3).val; omega
  · -- the block's index inside the array
    refine congrArg _ (funext fun a => Fin.ext ?_)
    match a with
    | ⟨0, _⟩ => show win0_4.index t (0 : Fin 4) = win0_4.index t (0 : Fin 4) * 1 + 1 * (j 0).val; omega
    | ⟨1, _⟩ => show win0_4.index t (1 : Fin 4) = win0_4.index t (1 : Fin 4) * 1 + 1 * (j 1).val; omega
    | ⟨2, _⟩ => show (j 2).val = win0_4.index t (2 : Fin 4) * 4100 + 1 * (j 2).val; omega
    | ⟨3, _⟩ => show (j 3).val = win0_4.index t (3 : Fin 4) * 128 + 1 * (j 3).val; omega

/-- An index of the array is in point `t`'s block iff each coordinate is in the block's range on its axis. -/
theorem mem_block_first (t : Fin cfg0.N) (i : S4x32x4100x128.Idx) :
    i ∈ ((cfg0.win 4).blk t).view.set ↔ ∀ a : Fin 4, win0_4.index t a * S1x1x4100x128.size a ≤ (i a).val
      ∧ (i a).val < win0_4.index t a * S1x1x4100x128.size a + S1x1x4100x128.size a := by
  show i ∈ ((View.whole main_v0_0).slice (win0_4.rect t)).set ↔ _
  rw [View.set_slice_whole, Rect.mem_set_unit]
  exact Iff.rfl

/-- The 128 blocks cover the array: index (p, q, r, l) is in the block of the point at (batch, head) = (p, q). -/
theorem cover_first (i : S4x32x4100x128.Idx) :
    ∃ t : Fin cfg0.N, (cfg0.win 4).flush t = true ∧ i ∈ ((cfg0.win 4).blk t).view.set := by
  have hi0 : (i 0).val < 4 := (i 0).isLt
  have hi1 : (i 1).val < 32 := (i 1).isLt
  have hi2 : (i 2).val < 4100 := (i 2).isLt
  have hi3 : (i 3).val < 128 := (i 3).isLt
  obtain ⟨t, ht⟩ := index_onto_first ⟨(i 0).val, hi0⟩ ⟨(i 1).val, hi1⟩
  have q0 : win0_4.index t (0 : Fin 4) = (i 0).val := congrFun ht 0
  have q1 : win0_4.index t (1 : Fin 4) = (i 1).val := congrFun ht 1
  have q2 : win0_4.index t (2 : Fin 4) = 0 := congrFun ht 2
  have q3 : win0_4.index t (3 : Fin 4) = 0 := congrFun ht 3
  refine ⟨t, flush0_4 t, ?_⟩
  rw [mem_block_first]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 4100 ≤ (i 2).val ∧ (i 2).val < win0_4.index t (2 : Fin 4) * 4100 + 4100; omega
  | ⟨3, _⟩ => show win0_4.index t (3 : Fin 4) * 128 ≤ (i 3).val ∧ (i 3).val < win0_4.index t (3 : Fin 4) * 128 + 128; omega

/-- The first output array after the run is the row map of the argument arrays. -/
theorem final_first (c : Dev nD) :
    (dats m 0 c).arrAt 4 cfg0.N
      = updated (b := 4) (h := 32) (m ((c : Thread nD τ).loc main_arg0)) (m ((c : Thread nD τ).loc main_arg2)) :=
  (dats m 0 c).arrAt_eq_of_cover 4 _ (fun t _ => flushed_first m c t) cover_first

/-! ## The second output -/

/-- The printed index maps, decided over the 128 grid points: the second output's block index is (batch, head, 0, 0)
    with batch < 4 and head < 32, and the old-cache and new-row windows it is computed from sit at the same
    (batch, head). -/
theorem index_facts_second : ∀ t : Fin cfg0.N,
    win0_1.index t (0 : Fin 4) = win0_5.index t (0 : Fin 4) ∧ win0_1.index t (1 : Fin 4) = win0_5.index t (1 : Fin 4)
    ∧ win0_1.index t (2 : Fin 4) = 0 ∧ win0_1.index t (3 : Fin 4) = 0
    ∧ win0_3.index t (0 : Fin 4) = win0_5.index t (0 : Fin 4) ∧ win0_3.index t (1 : Fin 4) = win0_5.index t (1 : Fin 4)
    ∧ win0_3.index t (2 : Fin 4) = 0 ∧ win0_3.index t (3 : Fin 4) = 0
    ∧ win0_5.index t (0 : Fin 4) < 4 ∧ win0_5.index t (1 : Fin 4) < 32
    ∧ win0_5.index t (2 : Fin 4) = 0 ∧ win0_5.index t (3 : Fin 4) = 0 :=
  (by decide +kernel : ∀ t : Fin grid0.N, _)

/-- Every (batch, head) is some grid point's block. -/
theorem index_onto_second : ∀ (q0 : Fin 4) (q1 : Fin 32), ∃ t : Fin cfg0.N, win0_5.index t = ![q0.val, q1.val, 0, 0] :=
  (by decide +kernel : ∀ (q0 : Fin 4) (q1 : Fin 32), ∃ t : Fin grid0.N, win0_5.index t = ![q0.val, q1.val, 0, 0])

/-- What point `t` writes back is block `t` of the row map of the whole argument arrays: the body leaves the row map of
    the point's input blocks (`BlockRows`), those blocks are the (batch, head) blocks of the arrays, and the row map acts
    on rows and lanes only (`CacheRows.updated_block`). -/
theorem flushed_second (c : Dev nD) (t : Fin cfg0.N) :
    (dats m 0 c).flushed 5 t = ((cfg0.win 5).blk t).view.read (Elt F)
      (updated (b := 4) (h := 32) (V m c main_arg1) (V m c main_arg3)) := by
  rw [Value.flushed5_A, BlockRows.second_block]
  obtain ⟨eo0, eo1, eo2, eo3, en0, en1, en2, en3, b0, b1, z2, z3⟩ := index_facts_second t
  funext j
  have hj0 : (j 0).val < 1 := (j 0).isLt
  have hj1 : (j 1).val < 1 := (j 1).isLt
  show updated (b := 1) (h := 1) (iblk m c 1 t) (iblk m c 3 t) ((cfg0.win 5).xinj (grid0.coords t) j)
    = updated (b := 4) (h := 32) (V m c main_arg1) (V m c main_arg3) (((cfg0.win 5).blk t).view.emb j)
  refine (updated_block (B := 4) (H := 32) (V m c main_arg1) (V m c main_arg3) (iblk m c 1 t) (iblk m c 3 t)
    ⟨win0_5.index t (0 : Fin 4), b0⟩ ⟨win0_5.index t (1 : Fin 4), b1⟩ (fun k => ?_) (fun k => ?_) _).trans ?_
  · -- the old-cache block is the (batch, head) block of the old cache
    have hk0 : (k 0).val < 1 := (k 0).isLt
    have hk1 : (k 1).val < 1 := (k 1).isLt
    show V m c main_arg1 (((cfg0.win 1).blk t).view.emb k) = V m c main_arg1 _
    refine congrArg _ (funext fun a => Fin.ext ?_)
    match a with
    | ⟨0, _⟩ => show win0_1.index t (0 : Fin 4) * 1 + 1 * (k 0).val = win0_5.index t (0 : Fin 4); omega
    | ⟨1, _⟩ => show win0_1.index t (1 : Fin 4) * 1 + 1 * (k 1).val = win0_5.index t (1 : Fin 4); omega
    | ⟨2, _⟩ => show win0_1.index t (2 : Fin 4) * 4096 + 1 * (k 2).val = (k 2).val; omega
    | ⟨3, _⟩ => show win0_1.index t (3 : Fin 4) * 128 + 1 * (k 3).val = (k 3).val; omega
  · -- the new-row block is the (batch, head) block of the new rows
    have hk0 : (k 0).val < 1 := (k 0).isLt
    have hk1 : (k 1).val < 1 := (k 1).isLt
    show V m c main_arg3 (((cfg0.win 3).blk t).view.emb k) = V m c main_arg3 _
    refine congrArg _ (funext fun a => Fin.ext ?_)
    match a with
    | ⟨0, _⟩ => show win0_3.index t (0 : Fin 4) * 1 + 1 * (k 0).val = win0_5.index t (0 : Fin 4); omega
    | ⟨1, _⟩ => show win0_3.index t (1 : Fin 4) * 1 + 1 * (k 1).val = win0_5.index t (1 : Fin 4); omega
    | ⟨2, _⟩ => show win0_3.index t (2 : Fin 4) * 16 + 1 * (k 2).val = (k 2).val; omega
    | ⟨3, _⟩ => show win0_3.index t (3 : Fin 4) * 128 + 1 * (k 3).val = (k 3).val; omega
  · -- the block's index inside the array
    refine congrArg _ (funext fun a => Fin.ext ?_)
    match a with
    | ⟨0, _⟩ => show win0_5.index t (0 : Fin 4) = win0_5.index t (0 : Fin 4) * 1 + 1 * (j 0).val; omega
    | ⟨1, _⟩ => show win0_5.index t (1 : Fin 4) = win0_5.index t (1 : Fin 4) * 1 + 1 * (j 1).val; omega
    | ⟨2, _⟩ => show (j 2).val = win0_5.index t (2 : Fin 4) * 4100 + 1 * (j 2).val; omega
    | ⟨3, _⟩ => show (j 3).val = win0_5.index t (3 : Fin 4) * 128 + 1 * (j 3).val; omega

/-- An index of the array is in point `t`'s block iff each coordinate is in the block's range on its axis. -/
theorem mem_block_second (t : Fin cfg0.N) (i : S4x32x4100x128.Idx) :
    i ∈ ((cfg0.win 5).blk t).view.set ↔ ∀ a : Fin 4, win0_5.index t a * S1x1x4100x128.size a ≤ (i a).val
      ∧ (i a).val < win0_5.index t a * S1x1x4100x128.size a + S1x1x4100x128.size a := by
  show i ∈ ((View.whole main_v0_1).slice (win0_5.rect t)).set ↔ _
  rw [View.set_slice_whole, Rect.mem_set_unit]
  exact Iff.rfl

/-- The 128 blocks cover the array: index (p, q, r, l) is in the block of the point at (batch, head) = (p, q). -/
theorem cover_second (i : S4x32x4100x128.Idx) :
    ∃ t : Fin cfg0.N, (cfg0.win 5).flush t = true ∧ i ∈ ((cfg0.win 5).blk t).view.set := by
  have hi0 : (i 0).val < 4 := (i 0).isLt
  have hi1 : (i 1).val < 32 := (i 1).isLt
  have hi2 : (i 2).val < 4100 := (i 2).isLt
  have hi3 : (i 3).val < 128 := (i 3).isLt
  obtain ⟨t, ht⟩ := index_onto_second ⟨(i 0).val, hi0⟩ ⟨(i 1).val, hi1⟩
  have q0 : win0_5.index t (0 : Fin 4) = (i 0).val := congrFun ht 0
  have q1 : win0_5.index t (1 : Fin 4) = (i 1).val := congrFun ht 1
  have q2 : win0_5.index t (2 : Fin 4) = 0 := congrFun ht 2
  have q3 : win0_5.index t (3 : Fin 4) = 0 := congrFun ht 3
  refine ⟨t, flush0_5 t, ?_⟩
  rw [mem_block_second]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 4100 ≤ (i 2).val ∧ (i 2).val < win0_5.index t (2 : Fin 4) * 4100 + 4100; omega
  | ⟨3, _⟩ => show win0_5.index t (3 : Fin 4) * 128 ≤ (i 3).val ∧ (i 3).val < win0_5.index t (3 : Fin 4) * 128 + 128; omega

/-- The second output array after the run is the row map of the argument arrays. -/
theorem final_second (c : Dev nD) :
    (dats m 0 c).arrAt 5 cfg0.N
      = updated (b := 4) (h := 32) (m ((c : Thread nD τ).loc main_arg1)) (m ((c : Thread nD τ).loc main_arg3)) :=
  (dats m 0 c).arrAt_eq_of_cover 5 _ (fun t _ => flushed_second m c t) cover_second

/-! ## The run, read -/

/-- Every weakly fair execution of the idealized kernel terminates with each result array at the row map of its old
    cache and new rows, the arguments unchanged. -/
theorem run : θ_run defs (onTc (τ := τ) (main (F := F))) ⟨m, fun _ => 0, ρ⟩ fun r => ∀ c : Dev nD,
      r.2.mem ((c : Thread nD τ).loc main_v0_0)
        = updated (b := 4) (h := 32) (m ((c : Thread nD τ).loc main_arg0)) (m ((c : Thread nD τ).loc main_arg2))
      ∧ r.2.mem ((c : Thread nD τ).loc main_v0_1)
        = updated (b := 4) (h := 32) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_first m c), (h c).2.1.trans (final_second m c), (h c).2.2⟩)
    (Value.run_blocks m ρ)

end Cert.KernelIdeal.ArrayRows

end
-- ==== Proof.lean ====
/-
  A sink-plus-window cache update: the kernel against its host reference, over the extended reals.

  Arguments: an old key cache and an old value cache, f32[4, 32, 4096, 128], and 16 new rows for each,
  f32[4, 32, 16, 128]. Results: the two updated caches, f32[4, 32, 4100, 128]. For each (batch, head), row r of an
  updated cache is old row r for r < 4 (the sink), old row r + 12 for 4 ≤ r < 4084 (the last 4080 old rows) and new
  row r - 4084 for the last sixteen rows (`CacheRows.updated`).

  The kernel runs one grid point per (batch, head) and copies three row ranges into the output block
  (`BlockRows`), and its 128 output blocks tile each result (`ArrayRows`). The reference joins old and new along the
  row axis, slices rows 0 … 3 and rows 16 … 4111 of the join, and joins the two slices
  (`CacheRows.join_slices_eq_updated`). Both are the same selection of input elements: no arithmetic is done on any
  element, so the equality holds for every extended-real input and the finiteness precondition is never used. The
  idealization rewrote nothing, so its soundness claim is trivial. The three frame claims are the generated frame runs
  (the reference's is its generated run with the results dropped).
-/
import proofs.«129478_j498216206780_1_alg».proof.Defs
import proofs.«129478_j498216206780_1_alg».proof.Proof.Gen.Kernel
import proofs.«129478_j498216206780_1_alg».proof.Proof.Gen.Kernel.Frame
import proofs.«129478_j498216206780_1_alg».proof.Proof.Gen.KernelIdeal
import proofs.«129478_j498216206780_1_alg».proof.Proof.Gen.KernelIdeal.Frame
import proofs.«129478_j498216206780_1_alg».proof.Proof.Gen.KernelIdeal.Value
import proofs.«129478_j498216206780_1_alg».proof.Proof.Gen.ReferenceIdeal
import proofs.«129478_j498216206780_1_alg».proof.Proof.Gen.ReferenceIdeal.Run
import proofs.«129478_j498216206780_1_alg».proof.Proof.Gen.Pre_finite_inputs
import proofs.«129478_j498216206780_1_alg».proof.Proof.CacheRows
import proofs.«129478_j498216206780_1_alg».proof.Proof.ArrayRows
import Idealize.ShloMosaic.Adequacy
import Idealize.ShloMosaic.Init

noncomputable section

namespace Cert.Proof

open Idealize.ShloMosaic Idealize.ShloMosaic.TcCoe Idealize.SL.Sem CacheRows

/-- The word-level kernel terminates without a fault and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run, with what it says of the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation: nothing to show. -/
theorem preserves : Cert.preserves_Kernel_KernelIdeal := trivial

/-- From memories that agree on the four arguments both programs end with each result at the row map of its old
    cache and new rows: the kernel by its blocks, the reference by its join, slices and join. -/
theorem algebraic : Cert.algebraic_KernelIdeal_ReferenceIdeal := by
  intro m ρ m' ρ' _ hagree
  refine ⟨fun c => updated (b := 4) (h := 32) (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    fun c => updated (b := 4) (h := 32) (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    Cert.KernelIdeal.ArrayRows.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.2.1]
    exact join_slices_eq_updated _ _ _ _ _ _
  · rw [(hagree c).2.1, (hagree c).2.2.2]
    exact join_slices_eq_updated _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
